-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S20x128 : Shape := ⟨2, ![20, 128]⟩
abbrev S20 : Shape := ⟨1, ![20]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S20x128 : S_.BroadcastsInDim S20x128 (![] : Fin 0 → Fin S20x128.rank)
  reducesTo_S20x128_S_d0_1 : S20x128.ReducesTo [0, 1] S_
  bcast_S_S20 : S_.BroadcastsInDim S20 (![] : Fin 0 → Fin S20.rank)
  reducesTo_S20_S_d0 : S20.ReducesTo [0] S_

variable [Facts]

def fn_part3 {F : FTy → Type} [FloatOps F] (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S20x128 .f32) (main_arg11 : FVec F S20 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S20x128 .f32 := Host.absf main_arg10
  let main_cst_16 : FVec F S_ .f32 := constant S_ .f32 0x7F800000#32
  let main_v45 : FVec F S20x128 .f32 := broadcastInDim S20x128 ![] bcast_S_S20x128 main_cst_16
  let main_v46 : IVec S20x128 1 := cmpf .olt main_v44 main_v45
  let main_c_17 : IVec S_ 1 := constantI S_ 1 1#1
  let main_v47 : IVec S_ 1 := (fun x v => Host.reduce IntOp.andi x v reducesTo_S20x128_S_d0_1 h_S_) main_v46 main_c_17
  let main_v48 : IVec S_ 1 := andi main_v43 main_v47
  let main_v49 : FVec F S20 .f32 := Host.absf main_arg11
  let main_cst_18 : FVec F S_ .f32 := constant S_ .f32 0x7F800000#32
  let main_v50 : FVec F S20 .f32 := broadcastInDim S20 ![] bcast_S_S20 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S20x128 .f32) (main_arg11 : FVec F S20 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S20x128 .f32) (main_arg11 : FVec F S20 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S20x128 : Shape := ⟨2, ![20, 128]⟩
abbrev S20 : Shape := ⟨1, ![20]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S128x20 : Shape := ⟨2, ![128, 20]⟩
abbrev S1x20 : Shape := ⟨2, ![1, 20]⟩
abbrev S100000x20 : Shape := ⟨2, ![100000, 20]⟩
abbrev S5000x20 : Shape := ⟨2, ![5000, 20]⟩

abbrev nBuf : Space → Nat
  | .hbm => 66
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S20x128, .f32⟩
  | .hbm, ⟨11, _⟩ => ⟨S20, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000x1, .f32⟩
  | .hbm, ⟨18, _⟩ => ⟨S_, .f32⟩
  | .hbm, ⟨19, _⟩ => ⟨S100000x1, .f32⟩
  | .hbm, ⟨20, _⟩ => ⟨S1600000x1, .i32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x20, .f32⟩
  | .hbm, ⟨62, _⟩ => ⟨S1x128, .f32⟩
  | .hbm, ⟨63, _⟩ => ⟨S1x128, .f32⟩
  | .hbm, ⟨64, _⟩ => ⟨S1x20, .f32⟩
  | .hbm, ⟨65, _⟩ => ⟨S100000x20, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S128x20, .f32⟩
  | .local _ .vmem, ⟨23, _⟩ => ⟨S1x20, .f32⟩
  | .local _ .vmem, ⟨24, _⟩ => ⟨S5000x20, .f32⟩
  | .local _ .vmem, ⟨25, _⟩ => ⟨S5000x20, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x20 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x20 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x20 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S20x128_S128x20_1_0 : S20x128.Transposes [1, 0] S128x20
  shapeCasts_S20_S1x20 : S20.ShapeCasts S1x20
  inb_S128x20_S128x20_0_0 : ∀ a, (![0, 0] : Fin 2 → Nat) a + S128x20.size a ≤ S128x20.size a
  h_S128x20 : 0 < S128x20.numel
  shapeCasts_S128x20_S128x20 : S128x20.ShapeCasts S128x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  inb_S5000x20_S5000x20_0_0 : ∀ a, (![0, 0] : Fin 2 → Nat) a + S5000x20.size a ≤ S5000x20.size a
  h_S5000x20 : 0 < S5000x20.numel
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x20_S5000x20_1_0_0_1_n_n_wf : DotDims.WF S5000x128 S128x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x20.size a ≤ S128x20.size a
  hwx1_8 : ∀ i : grid1.Coords, EltTy.bits .f32 = 32 ∨ (Rect.block (s := S128x20) S128x20.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x20.size a ≤ S1x20.size a
  hwx1_9 : ∀ i : grid1.Coords, EltTy.bits .f32 = 32 ∨ (Rect.block (s := S1x20) S1x20.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x20.size a ≤ S100000x20.size a
  hwx1_10 : ∀ i : grid1.Coords, EltTy.bits .f32 = 32 ∨ (Rect.block (s := S100000x20) S5000x20.size (cc1_transform_10 i) (hinb1_10 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x20_S5000x20_1_0_0_1_n_n : DotDims S5000x128 S128x20 S5000x20 where
  lhsContracting := [1]
  rhsContracting := [0]
  lhsNonContracting := [0]
  rhsNonContracting := [1]
  lhsBatch := []
  rhsBatch := []
  wf := dot_S5000x128_S128x20_S5000x20_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S128x20.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S1x20.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S5000x20.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S20x128 : Shape := ⟨2, ![20, 128]⟩
abbrev S20 : Shape := ⟨1, ![20]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x20 : Shape := ⟨2, ![128, 20]⟩
abbrev S100000x20 : Shape := ⟨2, ![100000, 20]⟩
abbrev S1x20 : Shape := ⟨2, ![1, 20]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S20x128, .f32⟩
  | .hbm, ⟨11, _⟩ => ⟨S20, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000x1, .f32⟩
  | .hbm, ⟨31, _⟩ => ⟨S_, .f32⟩
  | .hbm, ⟨32, _⟩ => ⟨S100000x1, .f32⟩
  | .hbm, ⟨33, _⟩ => ⟨S1600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000x1, .f32⟩
  | .hbm, ⟨66, _⟩ => ⟨S_, .f32⟩
  | .hbm, ⟨67, _⟩ => ⟨S100000x1, .f32⟩
  | .hbm, ⟨68, _⟩ => ⟨S1600000x1, .i32⟩
  | .hbm, ⟨69, _⟩ => ⟨S100000x1, .f32⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S128x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S128x20, .f32⟩
  | .hbm, ⟨95, _⟩ => ⟨S100000x20, .f32⟩
  | .hbm, ⟨96, _⟩ => ⟨S1x20, .f32⟩
  | .hbm, ⟨97, _⟩ => ⟨S100000x20, .f32⟩
  | .hbm, ⟨98, _⟩ => ⟨S100000x20, .f32⟩
  | .hbm, ⟨99, _⟩ => ⟨S100000x20, .f32⟩
  | .hbm, ⟨100, _⟩ => ⟨S100000x20, .f32⟩
  | .hbm, ⟨101, _⟩ => ⟨S_, .f32⟩
  | .hbm, ⟨102, _⟩ => ⟨S100000x20, .f32⟩
  | .hbm, ⟨103, _⟩ => ⟨S100000x20, .f32⟩
  | .hbm, ⟨104, _⟩ => ⟨S_, .f32⟩
  | .hbm, ⟨105, _⟩ => ⟨S100000x20, .f32⟩
  | .hbm, ⟨106, _⟩ => ⟨S100000x20, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call2_cst : Ref sig .tc := ⟨.hbm, 91, rfl⟩
abbrev main_call2_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_cst_11 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S20x128_S128x20_1_0 : S20x128.Transposes [1, 0] S128x20
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S100000x20 : S_.BroadcastsInDim S100000x20 (![] : Fin 0 → Fin S100000x20.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x20_S100000x20_1_0_0_1_n_n_wf : DotDims.WF S100000x128 S128x20 S100000x20 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf

class Facts : Prop extends Facts₀ where

variable [Facts]
-- ==== Proof.KRun.lean ====
/-
  The idealized kernel's run, with the final memory read whole: every weakly fair execution terminates without a fault,
  and every buffer outside the scoped memories ends at the contents the fold of the program's segments gives it —
  the host operations' results, and each region's arrays as its write-backs leave them.  In particular the result
  array ends at the second region's output array, and the arguments end as launched.
-/
import proofs.«113258_j18124761989810_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the scoped memories ends at the last boundary's contents. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at the second region's output array as its write-backs leave it; the arguments end as
    launched. -/
theorem run_result : θ_run defs (onTc (τ := τ) (main (F := F))) ⟨m, fun _ => 0, ρ⟩ (fun r => ∀ c : Dev nD,
      r.2.mem ((c.tc : Thread nD τ).loc main_v43) = (dat1 (V3 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨(h c _ (mem_uc main_v43 (by decide))).trans (W4_arr m ρ c 10),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)
    (run_mem m ρ)

end Cert.KernelIdeal.Gen

end
-- ==== Proof.Spec.lean ====
/-
  The mathematics of the network, entry by entry, on the extended reals.

  A graph layer with mean aggregation takes, for every node p, the summed neighbour features A[p, ·], the reciprocal
  I[p] of the node's clamped in-degree, and the node's own features X[p, ·], and returns

      max ( (∑ k, (A[p, k] · I[p]) · WL[k, q]  +  ∑ k, X[p, k] · WR[k, q])  +  B[q] ,  0 ).

  A rectified dense layer is  max (∑ k, H[p, k] · W[k, q] + B[q], 0);  the output layer is the logistic function of
  ∑ k, H[p, k] · W[k, q] + B[q].  Every row p of a result depends on row p of the row-indexed operands only, so the
  same formulas describe a block of rows and the whole array.  All extents are variables.
-/
import Idealize.ShloMosaic.PureOps.Ideal.Laws
import Idealize.ShloMosaic.Lib.ValueIdx

noncomputable section

namespace Cert.Sage

open Idealize.ShloMosaic Idealize.ShloMosaic.ValueIdx

/-- The value of the zero word. -/
abbrev zeroW : Ideal .f32 := Ideal.ofBits .f32 0x00000000#32

/-- Entry (p, q) of a mean-aggregating graph layer followed by the rectifier. -/
def sageAt {n d e : ℕ} (A X : FVec Ideal ⟨2, ![n, d]⟩ .f32) (I : FVec Ideal ⟨2, ![n, 1]⟩ .f32)
    (WL WR : FVec Ideal ⟨2, ![d, e]⟩ .f32) (B : FVec Ideal ⟨2, ![1, e]⟩ .f32) (p : Fin n) (q : Fin e) : Ideal .f32 :=
  max ((∑ k : Fin d, (A (ix2 p k) * I (ix2 p (0 : Fin 1))) * WL (ix2 k q) + ∑ k : Fin d, X (ix2 p k) * WR (ix2 k q))
        + B (ix2 (0 : Fin 1) q)) zeroW

/-- The layer as an array. -/
def sage {n d e : ℕ} (A X : FVec Ideal ⟨2, ![n, d]⟩ .f32) (I : FVec Ideal ⟨2, ![n, 1]⟩ .f32)
    (WL WR : FVec Ideal ⟨2, ![d, e]⟩ .f32) (B : FVec Ideal ⟨2, ![1, e]⟩ .f32) : FVec Ideal ⟨2, ![n, e]⟩ .f32 :=
  fun j => sageAt A X I WL WR B (j 0) (j 1)

theorem sage_apply {n d e : ℕ} (A X : FVec Ideal ⟨2, ![n, d]⟩ .f32) (I : FVec Ideal ⟨2, ![n, 1]⟩ .f32)
    (WL WR : FVec Ideal ⟨2, ![d, e]⟩ .f32) (B : FVec Ideal ⟨2, ![1, e]⟩ .f32) (p : Fin n) (q : Fin e) :
    sage A X I WL WR B (ix2 p q) = sageAt A X I WL WR B p q := rfl

/-- Entry (p, q) of the affine map H · W + B. -/
def affAt {n d e : ℕ} (H : FVec Ideal ⟨2, ![n, d]⟩ .f32) (W : FVec Ideal ⟨2, ![d, e]⟩ .f32)
    (B : FVec Ideal ⟨2, ![1, e]⟩ .f32) (p : Fin n) (q : Fin e) : Ideal .f32 :=
  ∑ k : Fin d, H (ix2 p k) * W (ix2 k q) + B (ix2 (0 : Fin 1) q)

/-- A rectified dense layer as an array. -/
def reluDense {n d e : ℕ} (H : FVec Ideal ⟨2, ![n, d]⟩ .f32) (W : FVec Ideal ⟨2, ![d, e]⟩ .f32)
    (B : FVec Ideal ⟨2, ![1, e]⟩ .f32) : FVec Ideal ⟨2, ![n, e]⟩ .f32 :=
  fun j => max (affAt H W B (j 0) (j 1)) zeroW

theorem reluDense_apply {n d e : ℕ} (H : FVec Ideal ⟨2, ![n, d]⟩ .f32) (W : FVec Ideal ⟨2, ![d, e]⟩ .f32)
    (B : FVec Ideal ⟨2, ![1, e]⟩ .f32) (p : Fin n) (q : Fin e) :
    reluDense H W B (ix2 p q) = max (affAt H W B p q) zeroW := rfl

/-- The logistic output layer as an array. -/
def sigmDense {n d e : ℕ} (H : FVec Ideal ⟨2, ![n, d]⟩ .f32) (W : FVec Ideal ⟨2, ![d, e]⟩ .f32)
    (B : FVec Ideal ⟨2, ![1, e]⟩ .f32) : FVec Ideal ⟨2, ![n, e]⟩ .f32 :=
  fun j => Ideal.logistic (affAt H W B (j 0) (j 1))

theorem sigmDense_apply {n d e : ℕ} (H : FVec Ideal ⟨2, ![n, d]⟩ .f32) (W : FVec Ideal ⟨2, ![d, e]⟩ .f32)
    (B : FVec Ideal ⟨2, ![1, e]⟩ .f32) (p : Fin n) (q : Fin e) :
    sigmDense H W B (ix2 p q) = Ideal.logistic (affAt H W B p q) := rfl

/-- The second graph layer followed by the two-layer head: what the fused block computes. -/
def headNet {n d e f : ℕ} (A X : FVec Ideal ⟨2, ![n, d]⟩ .f32) (I : FVec Ideal ⟨2, ![n, 1]⟩ .f32)
    (WL WR : FVec Ideal ⟨2, ![d, e]⟩ .f32) (B : FVec Ideal ⟨2, ![1, e]⟩ .f32)
    (W1 : FVec Ideal ⟨2, ![e, e]⟩ .f32) (B1 : FVec Ideal ⟨2, ![1, e]⟩ .f32)
    (W2 : FVec Ideal ⟨2, ![e, f]⟩ .f32) (B2 : FVec Ideal ⟨2, ![1, f]⟩ .f32) : FVec Ideal ⟨2, ![n, f]⟩ .f32 :=
  sigmDense (reluDense (sage A X I WL WR B) W1 B1) W2 B2

/-- Rows are independent: a block of rows cut at offset `o` from the row-indexed operands gives the layer's rows
    from `o` on. -/
theorem sageAt_rows {N r d e : ℕ} (o : ℕ) (A X : FVec Ideal ⟨2, ![N, d]⟩ .f32) (I : FVec Ideal ⟨2, ![N, 1]⟩ .f32)
    (a x : FVec Ideal ⟨2, ![r, d]⟩ .f32) (i : FVec Ideal ⟨2, ![r, 1]⟩ .f32)
    (WL WR : FVec Ideal ⟨2, ![d, e]⟩ .f32) (B : FVec Ideal ⟨2, ![1, e]⟩ .f32)
    (p : Fin r) (P : Fin N) (hP : P.val = o + p.val)
    (ha : ∀ k : Fin d, a (ix2 p k) = A (ix2 P k)) (hx : ∀ k : Fin d, x (ix2 p k) = X (ix2 P k))
    (hi : i (ix2 p (0 : Fin 1)) = I (ix2 P (0 : Fin 1))) (q : Fin e) :
    sageAt a x i WL WR B p q = sageAt A X I WL WR B P q := by
  unfold sageAt
  rw [hi]
  simp only [ha, hx]

/-- The same for the affine map. -/
theorem affAt_rows {N r d e : ℕ} (H : FVec Ideal ⟨2, ![N, d]⟩ .f32) (h : FVec Ideal ⟨2, ![r, d]⟩ .f32)
    (W : FVec Ideal ⟨2, ![d, e]⟩ .f32) (B : FVec Ideal ⟨2, ![1, e]⟩ .f32) (p : Fin r) (P : Fin N)
    (hh : ∀ k : Fin d, h (ix2 p k) = H (ix2 P k)) (q : Fin e) :
    affAt h W B p q = affAt H W B P q := by
  unfold affAt
  simp only [hh]

end Cert.Sage

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibDenseBlock.lean ====
/-
  A fused dense layer on a block of rows, read at an entry, on the extended reals.

  The block computes  A · WL + X · WR + b  (and, for a rectified layer, the maximum of that with zero): the two
  matrix products are accumulated into zero matrices from operands first rounded to a narrower float format — at the
  ideal values the rounding is the identity —, they are added, and a one-row matrix `b` is repeated down the rows and
  added.  Entry (p, q) is

      (∑ k, A[p, k] · WL[k, q]  +  ∑ k, X[p, k] · WR[k, q])  +  b[0, q].

  All extents are variables.
-/
import proofs.«113258_j18124761989810_2_alg».proof.Proof.LibLayout

noncomputable section

namespace Cert.LibDenseBlock

open Idealize.ShloMosaic Idealize.ShloMosaic.ValueIdx

/-- Entry (p, q) of  A · WL + X · WR + b : the two contractions over the shared inner extent, then the bias of
    column q. -/
def affine {n d e : ℕ} (A X : FVec Ideal ⟨2, ![n, d]⟩ .f32) (WL WR : FVec Ideal ⟨2, ![d, e]⟩ .f32)
    (b : Fin e → Ideal .f32) (p : Fin n) (q : Fin e) : Ideal .f32 :=
  (∑ k : Fin d, A (ix2 p k) * WL (ix2 k q) + ∑ k : Fin d, X (ix2 p k) * WR (ix2 k q)) + b q

/-- The block's arithmetic as the vector unit spells it — operands rounded to a narrower format, two products into
    zero accumulators, their sum, a one-row bias repeated down the rows and added — is `affine` at every entry.
    The dimension record's own facts (one contracted axis of extent `d`, rows against columns) are hypotheses, closed
    at a literal record by `rfl`. -/
theorem block_affine_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb) (ix2 p q)
      = affine a x wl wr (fun q => b (ix2 (0 : Fin 1) q)) p q := by
  rw [addf_apply, addf_apply,
    Cert.LibLayout.matmul_rows_cols_apply D hr hs hlc hrc hl0 hr1 none (truncf ψ a hψ) (truncf ψ wl hψ) p q,
    Cert.LibLayout.matmul_rows_cols_apply D hr hs hlc hrc hl0 hr1 none (truncf ψ x hψ) (truncf ψ wr hψ) p q,
    broadcastTo_1b_ab_apply b hb p q]
  rfl

end Cert.LibDenseBlock

end
-- ==== Proof.KernelBlock.lean ====
/-
  What one block of rows computes, as the vector unit spells it, is the network's formulas on that block.

  The first kernel's stored value is the graph layer of its block; the second kernel's is the second graph layer, the
  rectified dense layer and the logistic output layer, composed.  Rounding the operands of a matrix product to a
  narrower float format is the identity on the extended reals, and a product accumulated into the zero matrix is the
  plain sum over the contracted axis.
-/
import proofs.«113258_j18124761989810_2_alg».proof.Proof.Gen.KernelIdeal.Skeleton
import proofs.«113258_j18124761989810_2_alg».proof.Proof.Spec
import proofs.«113258_j18124761989810_2_alg».proof.Proof.LibDenseBlock
import Idealize.ShloMosaic.Lib.Pipeline.Value
import Idealize.ShloMosaic.Lib.ValueLayout

noncomputable section

namespace Cert.Sage.Block

open Idealize.ShloMosaic Idealize.ShloMosaic.ValueIdx Cert.KernelIdeal Cert.KernelIdeal.Gen Cert.Sage

/-- The product of a 5000 × 128 block with a 128 × 128 matrix. -/
abbrev dA : DotDims S5000x128 S128x128 S5000x128 := dot_S5000x128_S128x128_S5000x128_1_0_0_1_n_n
/-- The product of a 5000 × 128 block with a 128 × 20 matrix. -/
abbrev dB : DotDims S5000x128 S128x20 S5000x20 := dot_S5000x128_S128x20_S5000x20_1_0_0_1_n_n

/-- The left operand's free axis is the result's row. -/
theorem dA_l0 (j : S5000x128.Idx) (k : dA.contr.Idx) : (dA.lhsIdx j k 0).val = (j 0).val := by
  unfold DotDims.lhsIdx
  rw [dif_neg (show ¬(0 : Fin S5000x128.rank) ∈ dA.lhsBatch by decide),
    dif_pos (show (0 : Fin S5000x128.rank) ∈ dA.lhsNonContracting by decide)]
  rfl

/-- The right operand's free axis is the result's column. -/
theorem dA_r1 (j : S5000x128.Idx) (k : dA.contr.Idx) : (dA.rhsIdx j k 1).val = (j 1).val := by
  unfold DotDims.rhsIdx
  rw [dif_neg (show ¬(1 : Fin S128x128.rank) ∈ dA.rhsBatch by decide),
    dif_pos (show (1 : Fin S128x128.rank) ∈ dA.rhsNonContracting by decide)]
  rfl

theorem dB_l0 (j : S5000x20.Idx) (k : dB.contr.Idx) : (dB.lhsIdx j k 0).val = (j 0).val := by
  unfold DotDims.lhsIdx
  rw [dif_neg (show ¬(0 : Fin S5000x128.rank) ∈ dB.lhsBatch by decide),
    dif_pos (show (0 : Fin S5000x128.rank) ∈ dB.lhsNonContracting by decide)]
  rfl

theorem dB_r1 (j : S5000x20.Idx) (k : dB.contr.Idx) : (dB.rhsIdx j k 1).val = (j 1).val := by
  unfold DotDims.rhsIdx
  rw [dif_neg (show ¬(1 : Fin S128x20.rank) ∈ dB.rhsBatch by decide),
    dif_pos (show (1 : Fin S128x20.rank) ∈ dB.rhsNonContracting by decide)]
  rfl

/-- The graph layer on a block, as vector operations: the neighbour sums scaled row by row, both products, the bias
    row, the rectifier. -/
def sageVec (a x : FVec Ideal S5000x128 .f32) (i : FVec Ideal S5000x1 .f32) (wl wr : FVec Ideal S128x128 .f32)
    (b : FVec Ideal S1x128 .f32) (hi : S5000x1.Broadcasts S5000x128) (hb : S1x128.Broadcasts S5000x128)
    (hψ : FTy.bits .bf16 < FTy.bits .f32) : FVec Ideal S5000x128 .f32 :=
  maximumf (addf (addf (matmul dA none (truncf .bf16 (mulf a (broadcastTo S5000x128 i hi)) hψ) (truncf .bf16 wl hψ)
          (constant S5000x128 .f32 0x00000000#32))
        (matmul dA none (truncf .bf16 x hψ) (truncf .bf16 wr hψ) (constant S5000x128 .f32 0x00000000#32)))
      (broadcastTo S5000x128 b hb))
    (broadcast S5000x128 (Scalar.ofBits (F := Ideal) .f32 0x00000000#32))

theorem sageVec_eq (a x : FVec Ideal S5000x128 .f32) (i : FVec Ideal S5000x1 .f32) (wl wr : FVec Ideal S128x128 .f32)
    (b : FVec Ideal S1x128 .f32) (hi : S5000x1.Broadcasts S5000x128) (hb : S1x128.Broadcasts S5000x128)
    (hψ : FTy.bits .bf16 < FTy.bits .f32) :
    sageVec a x i wl wr b hi hb hψ = sage a x i wl wr b := by
  funext j
  obtain ⟨p, q, rfl⟩ : ∃ (p : Fin 5000) (q : Fin 128), j = ix2 p q := ⟨j 0, j 1, eq_ix2 j⟩
  rw [sage_apply]
  unfold sageVec
  rw [maximumf_apply, broadcast_apply,
    Cert.LibDenseBlock.block_affine_apply dA rfl rfl rfl rfl dA_l0 dA_r1 hψ _ x wl wr b hb p q]
  unfold sageAt Cert.LibDenseBlock.affine
  simp only [mulf_apply, Cert.LibLayout.broadcastTo_a1_ab_apply i hi]
  rfl

/-- A rectified dense layer on a block, as vector operations. -/
def reluVec (h : FVec Ideal S5000x128 .f32) (w : FVec Ideal S128x128 .f32) (b : FVec Ideal S1x128 .f32)
    (hb : S1x128.Broadcasts S5000x128) (hψ : FTy.bits .bf16 < FTy.bits .f32) : FVec Ideal S5000x128 .f32 :=
  maximumf (addf (matmul dA none (truncf .bf16 h hψ) (truncf .bf16 w hψ) (constant S5000x128 .f32 0x00000000#32))
      (broadcastTo S5000x128 b hb))
    (broadcast S5000x128 (Scalar.ofBits (F := Ideal) .f32 0x00000000#32))

theorem reluVec_eq (h : FVec Ideal S5000x128 .f32) (w : FVec Ideal S128x128 .f32) (b : FVec Ideal S1x128 .f32)
    (hb : S1x128.Broadcasts S5000x128) (hψ : FTy.bits .bf16 < FTy.bits .f32) :
    reluVec h w b hb hψ = reluDense h w b := by
  funext j
  obtain ⟨p, q, rfl⟩ : ∃ (p : Fin 5000) (q : Fin 128), j = ix2 p q := ⟨j 0, j 1, eq_ix2 j⟩
  rw [reluDense_apply]
  unfold reluVec affAt
  rw [maximumf_apply, broadcast_apply, addf_apply,
    Cert.LibLayout.matmul_rows_cols_apply dA rfl rfl rfl rfl dA_l0 dA_r1 none (truncf .bf16 h hψ) (truncf .bf16 w hψ) p q,
    broadcastTo_1b_ab_apply b hb p q]
  rfl

/-- The logistic output layer on a block, as vector operations. -/
def sigmVec (h : FVec Ideal S5000x128 .bf16) (w : FVec Ideal S128x20 .f32) (b : FVec Ideal S1x20 .f32)
    (hb : S1x20.Broadcasts S5000x20) (hψ : FTy.bits .bf16 < FTy.bits .f32) : FVec Ideal S5000x20 .f32 :=
  logistic (addf (matmul dB none h (truncf .bf16 w hψ) (constant S5000x20 .f32 0x00000000#32))
      (broadcastTo S5000x20 b hb))

theorem sigmVec_eq (h : FVec Ideal S5000x128 .bf16) (w : FVec Ideal S128x20 .f32) (b : FVec Ideal S1x20 .f32)
    (hb : S1x20.Broadcasts S5000x20) (hψ : FTy.bits .bf16 < FTy.bits .f32) :
    sigmVec h w b hb hψ = sigmDense (n := 5000) (d := 128) (e := 20) h w b := by
  funext j
  obtain ⟨p, q, rfl⟩ : ∃ (p : Fin 5000) (q : Fin 20), j = ix2 p q := ⟨j 0, j 1, eq_ix2 j⟩
  rw [sigmDense_apply]
  unfold sigmVec affAt
  show Ideal.logistic (addf (matmul dB none h (truncf .bf16 w hψ) (constant S5000x20 .f32 0x00000000#32))
      (broadcastTo S5000x20 b hb) (ix2 p q)) = _
  rw [addf_apply,
    Cert.LibLayout.matmul_rows_cols_apply dB rfl rfl rfl rfl dB_l0 dB_r1 none h (truncf .bf16 w hψ) p q,
    broadcastTo_1b_ab_apply b hb p q]
  rfl

/-- The first kernel's stored value is the graph layer of its block. -/
theorem pay0_eq (a : Vec Ideal S5000x128 .f32) (i : Vec Ideal S5000x1 .f32) (x : Vec Ideal S5000x128 .f32)
    (wl wr : Vec Ideal S128x128 .f32) (b : Vec Ideal S1x128 .f32) :
    k0_pay1 (F := Ideal) a i x wl wr b = sage (n := 5000) (d := 128) (e := 128) a x i wl wr b := by
  unfold k0_pay1
  simp only [shapeCast_self]
  exact sageVec_eq a x i wl wr b _ _ _

/-- The second kernel's stored value is the second graph layer and the head, composed, of its block. -/
theorem pay1_eq (a : Vec Ideal S5000x128 .f32) (i : Vec Ideal S5000x1 .f32) (x : Vec Ideal S5000x128 .f32)
    (wl wr : Vec Ideal S128x128 .f32) (b : Vec Ideal S1x128 .f32) (w1 : Vec Ideal S128x128 .f32) (b1 : Vec Ideal S1x128 .f32)
    (w2 : Vec Ideal S128x20 .f32) (b2 : Vec Ideal S1x20 .f32) :
    k1_pay1 (F := Ideal) (k1_pay2 (F := Ideal) a i x wl wr b w1 b1) w2 b2
      = headNet (n := 5000) (d := 128) (e := 128) (f := 20) a x i wl wr b w1 b1 w2 b2 := by
  unfold k1_pay1 k1_pay2 headNet
  simp only [shapeCast_self]
  refine (sigmVec_eq _ w2 b2 _ _).trans ?_
  refine congrArg (fun h => sigmDense (n := 5000) (d := 128) (e := 20) h w2 b2) ?_
  refine (reluVec_eq _ w1 b1 _ _).trans ?_
  exact congrArg (fun h => reluDense h w1 b1) (sageVec_eq a x i wl wr b _ _ _)

end Cert.Sage.Block

end
-- ==== Proof.SpecRows.lean ====
/-
  Rows are independent through the whole second block: the second graph layer, the rectified dense layer and the
  logistic output layer of a block of rows are the rows of the same composition on the whole arrays.
-/
import proofs.«113258_j18124761989810_2_alg».proof.Proof.Spec

noncomputable section

namespace Cert.Sage

open Idealize.ShloMosaic Idealize.ShloMosaic.ValueIdx

/-- The graph layer's entry (p, q) from a block whose row p is row P of the arrays. -/
theorem sageAt_row {N r d e : ℕ} (A X : FVec Ideal ⟨2, ![N, d]⟩ .f32) (I : FVec Ideal ⟨2, ![N, 1]⟩ .f32)
    (a x : FVec Ideal ⟨2, ![r, d]⟩ .f32) (i : FVec Ideal ⟨2, ![r, 1]⟩ .f32)
    (WL WR : FVec Ideal ⟨2, ![d, e]⟩ .f32) (B : FVec Ideal ⟨2, ![1, e]⟩ .f32) (p : Fin r) (P : Fin N)
    (ha : ∀ k : Fin d, a (ix2 p k) = A (ix2 P k)) (hx : ∀ k : Fin d, x (ix2 p k) = X (ix2 P k))
    (hi : i (ix2 p (0 : Fin 1)) = I (ix2 P (0 : Fin 1))) (q : Fin e) :
    sageAt a x i WL WR B p q = sageAt A X I WL WR B P q := by
  unfold sageAt
  rw [hi]
  simp only [ha, hx]

/-- Entry (p, q) of the composed block computed from the block's rows is entry (P, q) of the composition on the
    arrays, when row p of each row-indexed block operand is row P of its array. -/
theorem headNet_rows {N r d e f : ℕ} (A X : FVec Ideal ⟨2, ![N, d]⟩ .f32) (I : FVec Ideal ⟨2, ![N, 1]⟩ .f32)
    (a x : FVec Ideal ⟨2, ![r, d]⟩ .f32) (i : FVec Ideal ⟨2, ![r, 1]⟩ .f32)
    (WL WR : FVec Ideal ⟨2, ![d, e]⟩ .f32) (B : FVec Ideal ⟨2, ![1, e]⟩ .f32)
    (W1 : FVec Ideal ⟨2, ![e, e]⟩ .f32) (B1 : FVec Ideal ⟨2, ![1, e]⟩ .f32)
    (W2 : FVec Ideal ⟨2, ![e, f]⟩ .f32) (B2 : FVec Ideal ⟨2, ![1, f]⟩ .f32)
    (p : Fin r) (P : Fin N)
    (ha : ∀ k : Fin d, a (ix2 p k) = A (ix2 P k)) (hx : ∀ k : Fin d, x (ix2 p k) = X (ix2 P k))
    (hi : i (ix2 p (0 : Fin 1)) = I (ix2 P (0 : Fin 1))) (q : Fin f) :
    headNet a x i WL WR B W1 B1 W2 B2 (ix2 p q) = headNet A X I WL WR B W1 B1 W2 B2 (ix2 P q) := by
  unfold headNet
  rw [sigmDense_apply, sigmDense_apply]
  refine congrArg Ideal.logistic (affAt_rows _ _ W2 B2 p P (fun k => ?_) q)
  rw [reluDense_apply, reluDense_apply]
  refine congrArg (fun u => max u zeroW) (affAt_rows _ _ W1 B1 p P (fun k' => ?_) k)
  rw [sage_apply, sage_apply]
  exact sageAt_row A X I a x i WL WR B p P ha hx hi k'

end Cert.Sage

end
-- ==== Proof.Region0.lean ====
/-
  The first region's output array.  Its twenty points each write back one block of 5000 rows; point t's block is rows
  5000·t … 5000·t + 4999 of the graph layer of the arrays the region finds — the neighbour sums, the reciprocal clamped
  degrees and the features by the same rows, the two weight matrices and the bias row whole — because a row of the
  layer depends on that row of the row-indexed operands only.  The blocks tile the array, so it ends holding the layer.
-/
import proofs.«113258_j18124761989810_2_alg».proof.Proof.Gen.KernelIdeal.Frame
import proofs.«113258_j18124761989810_2_alg».proof.Proof.KernelBlock
import proofs.«113258_j18124761989810_2_alg».proof.Proof.SpecRows

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block row t, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row of block row p at point t. -/
def row (t : Fin cfg0.N) (p : Fin 5000) : Fin 100000 :=
  ⟨5000 * t.val + p.val, by have h : t.val < grid0.N := t.isLt; have hN : grid0.N = 20 := N_0; have := p.isLt; show 5000 * t.val + p.val < 100000; omega⟩

/-- Block reads: the neighbour sums. -/
theorem read_agg (c : Dev nD) (t : Fin cfg0.N) (p : Fin 5000) (k : Fin 128) :
    iblk0 V c 0 t (ix2 p k) = V c main_v21 (ix2 (row t p) k) := by
  obtain ⟨e0, e1, -⟩ := idx_facts t
  show V c main_v21 (((cfg0.win 0).blk t).view.emb (ix2 p k)) = _
  refine congrArg (V c main_v21) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Block reads: the reciprocal clamped degrees. -/
theorem read_inv (c : Dev nD) (t : Fin cfg0.N) (p : Fin 5000) :
    iblk0 V c 1 t (ix2 p (0 : Fin 1)) = V c main_v11 (ix2 (row t p) (0 : Fin 1)) := by
  obtain ⟨-, -, e0, e1, -⟩ := idx_facts t
  show V c main_v11 (((cfg0.win 1).blk t).view.emb (ix2 p (0 : Fin 1))) = _
  refine congrArg (V c main_v11) (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * 0 = 0; omega

/-- Block reads: the features. -/
theorem read_x (c : Dev nD) (t : Fin cfg0.N) (p : Fin 5000) (k : Fin 128) :
    iblk0 V c 2 t (ix2 p k) = V c main_arg0 (ix2 (row t p) k) := by
  obtain ⟨-, -, -, -, e0, e1, -⟩ := idx_facts t
  show V c main_arg0 (((cfg0.win 2).blk t).view.emb (ix2 p k)) = _
  refine congrArg (V c main_arg0) (funext fun a => Fin.ext ?_)
  match a with
  | ⟨0, _⟩ => show win0_2.index t (0 : Fin 2) * 5000 + 1 * p.val = 5000 * t.val + p.val; omega
  | ⟨1, _⟩ => show win0_2.index t (1 : Fin 2) * 128 + 1 * k.val = k.val; omega

/-- Block reads: the two weight matrices and the bias row are read whole at every point. -/
theorem read_wl (c : Dev nD) (t : Fin cfg0.N) : iblk0 V c 3 t = V c main_v22 := by
  obtain ⟨-, -, -, -, -, -, e0, e1, -⟩ := idx_facts t
  funext y
  show V c main_v22 (((cfg0.win 3).blk t).view.emb y) = V c main_v22 y
  refine congrArg (V c main_v22) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem read_b (c : Dev nD) (t : Fin cfg0.N) : iblk0 V c 4 t = V c main_v24 := by
  obtain ⟨-, -, -, -, -, -, -, -, e0, e1, -⟩ := idx_facts t
  funext y
  show V c main_v24 (((cfg0.win 4).blk t).view.emb y) = V c main_v24 y
  refine congrArg (V c main_v24) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem read_wr (c : Dev nD) (t : Fin cfg0.N) : iblk0 V c 5 t = V c main_v23 := by
  obtain ⟨-, -, -, -, -, -, -, -, -, -, e0, e1, -⟩ := idx_facts t
  funext y
  show V c main_v23 (((cfg0.win 5).blk t).view.emb y) = V c main_v23 y
  refine congrArg (V c main_v23) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The layer of the arrays the region finds. -/
def layer (c : Dev nD) : FVec Ideal S100000x128 .f32 :=
  sage (n := 100000) (d := 128) (e := 128) (V c main_v21) (V c main_arg0) (V c main_v11) (V c main_v22) (V c main_v23) (V c main_v24)

/-- WHAT POINT t WRITES BACK is block t of the layer. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [Block.pay0_eq, read_wl V c t, read_b V c t, read_wr V c t]
  obtain ⟨-, -, -, -, -, -, -, -, -, -, -, -, e0, e1⟩ := idx_facts t
  funext y
  obtain ⟨p, q, rfl⟩ : ∃ (p : Fin 5000) (q : Fin 128), y = ix2 p q := ⟨y 0, y 1, eq_ix2 y⟩
  have hemb : ((cfg0.win 6).blk t).view.emb (ix2 p q) = ix2 (row t p) q := funext fun a => Fin.ext (by
    match a with
    | ⟨0, _⟩ => show win0_6.index t (0 : Fin 2) * 5000 + 1 * p.val = 5000 * t.val + p.val; omega
    | ⟨1, _⟩ => show win0_6.index t (1 : Fin 2) * 128 + 1 * q.val = q.val; omega)
  show sage (n := 5000) (d := 128) (e := 128) (iblk0 V c 0 t) (iblk0 V c 2 t) (iblk0 V c 1 t) (V c main_v22) (V c main_v23) (V c main_v24) (ix2 p q)
    = layer V c (((cfg0.win 6).blk t).view.emb (ix2 p q))
  rw [hemb]
  unfold layer
  rw [sage_apply, sage_apply]
  exact sageAt_row (V c main_v21) (V c main_arg0) (V c main_v11) (iblk0 V c 0 t) (iblk0 V c 2 t) (iblk0 V c 1 t)
    (V c main_v22) (V c main_v23) (V c main_v24) p (row t p)
    (fun k => read_agg V c t p k) (fun k => read_x V c t p k) (read_inv V c t p) q

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- The blocks tile the array: row r is in the block of point r / 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨-, -, -, -, -, -, -, -, -, -, -, -, e0, e1⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE ARRAY after the region: the graph layer of the arrays the region finds. -/
theorem final (c : Dev nD) : (dat0 V c).arrAt 6 cfg0.N = layer V c :=
  (dat0 V c).arrAt_eq_of_cover 6 (layer V c) (fun t _ => flushed_eq V c t) (cover)

end Cert.Sage.Region0

end
-- ==== Proof.Region1.lean ====
/-
  The second region's output array.  Its twenty points each write back one block of 5000 rows of 20 entries; point t's
  block is rows 5000·t … 5000·t + 4999 of the second graph layer, the rectified dense layer and the logistic output
  layer composed on the arrays the region finds, because every one of the three layers computes a row from the same
  row of its row-indexed operand.  The blocks tile the array, so it ends holding the composition.
-/
import proofs.«113258_j18124761989810_2_alg».proof.Proof.Gen.KernelIdeal.Frame
import proofs.«113258_j18124761989810_2_alg».proof.Proof.KernelBlock
import proofs.«113258_j18124761989810_2_alg».proof.Proof.SpecRows

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block row t, the others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 ∧ True :=
  (by decide +kernel : ∀ t : Fin grid1.N, _)

/-- The array row of block row p at point t. -/
def row (t : Fin cfg1.N) (p : Fin 5000) : Fin 100000 :=
  ⟨5000 * t.val + p.val, by have h : t.val < grid1.N := t.isLt; have hN : grid1.N = 20 := N_1; have := p.isLt; show 5000 * t.val + p.val < 100000; omega⟩

/-- Block reads: the neighbour sums. -/
theorem read_agg (c : Dev nD) (t : Fin cfg1.N) (p : Fin 5000) (k : Fin 128) :
    iblk1 V c 0 t (ix2 p k) = V c main_v35 (ix2 (row t p) k) := by
  have e0 := (idx_facts t).1
  have e1 := (idx_facts t).2.1
  show V c main_v35 (((cfg1.win 0).blk t).view.emb (ix2 p k)) = _
  refine congrArg (V c main_v35) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

/-- Block reads: the reciprocal clamped degrees. -/
theorem read_inv (c : Dev nD) (t : Fin cfg1.N) (p : Fin 5000) :
    iblk1 V c 1 t (ix2 p (0 : Fin 1)) = V c main_v11 (ix2 (row t p) (0 : Fin 1)) := by
  have e0 := (idx_facts t).2.2.1
  have e1 := (idx_facts t).2.2.2.1
  show V c main_v11 (((cfg1.win 1).blk t).view.emb (ix2 p (0 : Fin 1))) = _
  refine congrArg (V c main_v11) (funext fun a => Fin.ext ?_)
  match a with
  | ⟨0, _⟩ => show win1_1.index t (0 : Fin 2) * 5000 + 1 * p.val = 5000 * t.val + p.val; omega
  | ⟨1, _⟩ => show win1_1.index t (1 : Fin 2) * 1 + 1 * 0 = 0; omega

/-- Block reads: the first layer's output. -/
theorem read_x (c : Dev nD) (t : Fin cfg1.N) (p : Fin 5000) (k : Fin 128) :
    iblk1 V c 2 t (ix2 p k) = V c main_v25 (ix2 (row t p) k) := by
  have e0 := (idx_facts t).2.2.2.2.1
  have e1 := (idx_facts t).2.2.2.2.2.1
  show V c main_v25 (((cfg1.win 2).blk t).view.emb (ix2 p k)) = _
  refine congrArg (V c main_v25) (funext fun a => Fin.ext ?_)
  match a with
  | ⟨0, _⟩ => show win1_2.index t (0 : Fin 2) * 5000 + 1 * p.val = 5000 * t.val + p.val; omega
  | ⟨1, _⟩ => show win1_2.index t (1 : Fin 2) * 128 + 1 * k.val = k.val; omega

/-! The weight matrices and the bias rows are read whole at every point. -/
theorem read_w3 (c : Dev nD) (t : Fin cfg1.N) : iblk1 V c 3 t = V c main_v36 := by
  have e0 := (idx_facts t).2.2.2.2.2.2.1
  have e1 := (idx_facts t).2.2.2.2.2.2.2.1
  funext y
  show V c main_v36 (((cfg1.win 3).blk t).view.emb y) = V c main_v36 y
  refine congrArg (V c main_v36) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem read_w4 (c : Dev nD) (t : Fin cfg1.N) : iblk1 V c 4 t = V c main_v40 := by
  have e0 := (idx_facts t).2.2.2.2.2.2.2.2.1
  have e1 := (idx_facts t).2.2.2.2.2.2.2.2.2.1
  funext y
  show V c main_v40 (((cfg1.win 4).blk t).view.emb y) = V c main_v40 y
  refine congrArg (V c main_v40) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem read_w5 (c : Dev nD) (t : Fin cfg1.N) : iblk1 V c 5 t = V c main_v37 := by
  have e0 := (idx_facts t).2.2.2.2.2.2.2.2.2.2.1
  have e1 := (idx_facts t).2.2.2.2.2.2.2.2.2.2.2.1
  funext y
  show V c main_v37 (((cfg1.win 5).blk t).view.emb y) = V c main_v37 y
  refine congrArg (V c main_v37) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem read_w6 (c : Dev nD) (t : Fin cfg1.N) : iblk1 V c 6 t = V c main_v38 := by
  have e0 := (idx_facts t).2.2.2.2.2.2.2.2.2.2.2.2.1
  have e1 := (idx_facts t).2.2.2.2.2.2.2.2.2.2.2.2.2.1
  funext y
  show V c main_v38 (((cfg1.win 6).blk t).view.emb y) = V c main_v38 y
  refine congrArg (V c main_v38) (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

theorem read_w7 (c : Dev nD) (t : Fin cfg1.N) : iblk1 V c 7 t = V c main_v41 := by
  have e0 := (idx_facts t).2.2.2.2.2.2.2.2.2.2.2.2.2.2.1
  have e1 := (idx_facts t).2.2.2.2.2.2.2.2.2.2.2.2.2.2.2.1
  funext y
  show V c main_v41 (((cfg1.win 7).blk t).view.emb y) = V c main_v41 y
  refine congrArg (V c main_v41) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

theorem read_w8 (c : Dev nD) (t : Fin cfg1.N) : iblk1 V c 8 t = V c main_v39 := by
  have e0 := (idx_facts t).2.2.2.2.2.2.2.2.2.2.2.2.2.2.2.2.1
  have e1 := (idx_facts t).2.2.2.2.2.2.2.2.2.2.2.2.2.2.2.2.2.1
  funext y
  show V c main_v39 (((cfg1.win 8).blk t).view.emb y) = V c main_v39 y
  refine congrArg (V c main_v39) (funext fun a => Fin.ext ?_)
  match a with
  | ⟨0, _⟩ => show win1_8.index t (0 : Fin 2) * 128 + 1 * (y 0).val = (y 0).val; omega
  | ⟨1, _⟩ => show win1_8.index t (1 : Fin 2) * 20 + 1 * (y 1).val = (y 1).val; omega

theorem read_w9 (c : Dev nD) (t : Fin cfg1.N) : iblk1 V c 9 t = V c main_v42 := by
  have e0 := (idx_facts t).2.2.2.2.2.2.2.2.2.2.2.2.2.2.2.2.2.2.1
  have e1 := (idx_facts t).2.2.2.2.2.2.2.2.2.2.2.2.2.2.2.2.2.2.2.1
  funext y
  show V c main_v42 (((cfg1.win 9).blk t).view.emb y) = V c main_v42 y
  refine congrArg (V c main_v42) (funext fun a => Fin.ext ?_)
  match a with
  | ⟨0, _⟩ => show win1_9.index t (0 : Fin 2) * 1 + 1 * (y 0).val = (y 0).val; omega
  | ⟨1, _⟩ => show win1_9.index t (1 : Fin 2) * 20 + 1 * (y 1).val = (y 1).val; omega

/-- The composition on the arrays the region finds. -/
def net (c : Dev nD) : FVec Ideal S100000x20 .f32 :=
  headNet (n := 100000) (d := 128) (e := 128) (f := 20) (V c main_v35) (V c main_v25) (V c main_v11) (V c main_v36) (V c main_v37)
    (V c main_v40) (V c main_v38) (V c main_v41) (V c main_v39) (V c main_v42)

/-- WHAT POINT t WRITES BACK is block t of the composition. -/
theorem flushed_eq (c : Dev nD) (t : Fin cfg1.N) :
    (dat1 V c).flushed 10 t = ((cfg1.win 10).blk t).view.read (Elt Ideal) (net V c) := by
  show (cfg1.win 10).cut (grid1.coords t) ((dat1 V c).after 10 t) = _
  rw [after1_10]
  unfold out1_10
  rw [View.canon_unit_zero hz]
  simp only [View.ld_unit_zero (S := S5000x128) hz, View.ld_unit_zero (S := S5000x1) hz,
    View.ld_unit_zero (S := S128x128) hz, View.ld_unit_zero (S := S1x128) hz,
    View.ld_unit_zero (S := S128x20) hz, View.ld_unit_zero (S := S1x20) hz]
  rw [Block.pay1_eq, read_w3 V c t, read_w4 V c t, read_w5 V c t, read_w6 V c t, read_w7 V c t, read_w8 V c t, read_w9 V c t]
  have e0 := (idx_facts t).2.2.2.2.2.2.2.2.2.2.2.2.2.2.2.2.2.2.2.2.1
  have e1 := (idx_facts t).2.2.2.2.2.2.2.2.2.2.2.2.2.2.2.2.2.2.2.2.2.1
  funext y
  obtain ⟨p, q, rfl⟩ : ∃ (p : Fin 5000) (q : Fin 20), y = ix2 p q := ⟨y 0, y 1, eq_ix2 y⟩
  have hemb : ((cfg1.win 10).blk t).view.emb (ix2 p q) = ix2 (row t p) q := funext fun a => Fin.ext (by
    match a with
    | ⟨0, _⟩ => show win1_10.index t (0 : Fin 2) * 5000 + 1 * p.val = 5000 * t.val + p.val; omega
    | ⟨1, _⟩ => show win1_10.index t (1 : Fin 2) * 20 + 1 * q.val = q.val; omega)
  show headNet (n := 5000) (d := 128) (e := 128) (f := 20) (iblk1 V c 0 t) (iblk1 V c 2 t) (iblk1 V c 1 t) (V c main_v36) (V c main_v37)
      (V c main_v40) (V c main_v38) (V c main_v41) (V c main_v39) (V c main_v42) (ix2 p q)
    = net V c (((cfg1.win 10).blk t).view.emb (ix2 p q))
  rw [hemb]
  unfold net
  exact headNet_rows (V c main_v35) (V c main_v25) (V c main_v11) (iblk1 V c 0 t) (iblk1 V c 2 t) (iblk1 V c 1 t)
    (V c main_v36) (V c main_v37) (V c main_v40) (V c main_v38) (V c main_v41) (V c main_v39) (V c main_v42) p (row t p)
    (fun k => read_agg V c t p k) (fun k => read_x V c t p k) (read_inv V c t p) q

/-- An index of the array is in point t's block iff each coordinate is in the block's range on its axis. -/
theorem mem_blk (t : Fin cfg1.N) (i : S100000x20.Idx) :
    i ∈ ((cfg1.win 10).blk t).view.set ↔ ∀ a : Fin 2, win1_10.index t a * S5000x20.size a ≤ (i a).val ∧ (i a).val < win1_10.index t a * S5000x20.size a + S5000x20.size a := by
  show i ∈ ((View.whole main_v43).slice (win1_10.rect t)).set ↔ _
  rw [View.set_slice_whole, Rect.mem_set_unit]
  exact Iff.rfl

/-- The blocks tile the array: row r is in the block of point r / 5000. -/
theorem cover (i : S100000x20.Idx) :
    ∃ t : Fin cfg1.N, (cfg1.win 10).flush t = true ∧ i ∈ ((cfg1.win 10).blk t).view.set := by
  have hi0 : (i 0).val < 100000 := (i 0).isLt
  have hi1 : (i 1).val < 20 := (i 1).isLt
  have hN : grid1.N = 20 := N_1
  let t : Fin cfg1.N := ⟨(i 0).val / 5000, by show (i 0).val / 5000 < grid1.N; omega⟩
  have e0 := (idx_facts t).2.2.2.2.2.2.2.2.2.2.2.2.2.2.2.2.2.2.2.2.1
  have e1 := (idx_facts t).2.2.2.2.2.2.2.2.2.2.2.2.2.2.2.2.2.2.2.2.2.1
  have ht : t.val = (i 0).val / 5000 := rfl
  refine ⟨t, flush1_10 t, ?_⟩
  rw [mem_blk]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 20 ≤ (i 1).val ∧ (i 1).val < win1_10.index t (1 : Fin 2) * 20 + 20; omega

/-- THE ARRAY after the region: the composition on the arrays the region finds. -/
theorem final (c : Dev nD) : (dat1 V c).arrAt 10 cfg1.N = net V c :=
  (dat1 V c).arrAt_eq_of_cover 10 (net V c) (fun t _ => flushed_eq V c t) (cover)

end Cert.Sage.Region1

end
-- ==== Proof.HostTerms.lean ====
/-
  The host operations around the two blocks, as functions of what they read.

  The destination and the source node of every edge are the two rows of the edge array; a negative source index
  counts from the end (100000 is added to it).  The neighbour sums of a feature array h are its rows gathered at the
  wrapped sources and added into the zero array at the destinations; the reciprocal clamped degree is one over the
  larger of one and the number of edges arriving at the node.  Neither the gather nor the scatter is ever opened:
  both programs apply the same two operations to the same operands.
-/
import proofs.«113258_j18124761989810_2_alg».proof.Proof.Gen.ReferenceIdeal.Read
import proofs.«113258_j18124761989810_2_alg».proof.Proof.Spec
import Idealize.ShloMosaic.Lib.ValueLayout

noncomputable section

namespace Cert.Sage.Host

open Idealize.ShloMosaic Idealize.ShloMosaic.ValueIdx Cert.ReferenceIdeal Cert.ReferenceIdeal.Gen Cert.ReferenceIdeal.Read

/-- Source indices wrapped (a negative index counts from the end), as a column of start indices. -/
def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbour sums of `h`: rows gathered at the wrapped sources `s`, added into zero at the destinations `d`. -/
def aggGen (h : FVec Ideal S100000x128 .f32) (d s : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h (wrapIdx s))

/-- One over the larger of one and the in-degree, as a column. -/
def invGen (d : IVec S1600000 32) : FVec Ideal S100000x1 .f32 :=
  Host.divf (F := Ideal) (broadcastInDim S100000x1 ![] bcast_S_S100000x1 (constant (F := Ideal) S_ .f32 0x3F800000#32))
    (maximumf
      (Host.scatterAdd (F := Ideal) scatter_S100000x1_S1600000x1_S1600000x1_1_0_0_1
        (broadcastInDim S100000x1 ![] bcast_S_S100000x1 (constant (F := Ideal) S_ .f32 0x00000000#32))
        (broadcastInDim S1600000x1 ![0] bcast_S1600000_S1600000x1_0 d)
        (broadcastInDim S1600000x1 ![] bcast_S_S1600000x1 (constant (F := Ideal) S_ .f32 0x3F800000#32)))
      (broadcastInDim S100000x1 ![] bcast_S_S100000x1 (constant (F := Ideal) S_ .f32 0x3F800000#32)))

/-! The reference's stages are these functions of its own source and destination vectors. -/

theorem agg1_eq (x0 : (⟨S100000x128, .f32⟩ : BufTy).Contents (Elt Ideal)) (x1 : (⟨S2x1600000, .i32⟩ : BufTy).Contents (Elt Ideal)) :
    val_main_v13 (F := Ideal) x0 x1 = aggGen x0 (val_main_v3 (F := Ideal) x1) (val_main_v1 (F := Ideal) x1) := rfl

theorem agg2_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v40 (F := Ideal) x0 x1 x2 x3 x4
      = aggGen (val_main_v30 (F := Ideal) x0 x1 x2 x3 x4) (val_main_v3 (F := Ideal) x1) (val_main_v1 (F := Ideal) x1) := rfl

theorem inv1_eq (x1 : (⟨S2x1600000, .i32⟩ : BufTy).Contents (Elt Ideal)) :
    Host.divf (F := Ideal) (val_main_v18 (F := Ideal)) (val_main_v19 (F := Ideal) x1) = invGen (val_main_v3 (F := Ideal) x1) := rfl

theorem inv2_eq (x1 : (⟨S2x1600000, .i32⟩ : BufTy).Contents (Elt Ideal)) :
    Host.divf (F := Ideal) (val_main_v45 (F := Ideal)) (val_main_v46 (F := Ideal) x1) = invGen (val_main_v3 (F := Ideal) x1) := rfl

/-- A bias vector as a one-row matrix: the reshape and the broadcast into a unit axis are the same row. -/
theorem row128_eq (b : FVec Ideal S128 .f32) (h : S128.ShapeCasts S1x128) :
    shapeCast S1x128 b h = val_main_v24 (F := Ideal) b := by
  funext j
  obtain ⟨u, q, rfl⟩ : ∃ (u : Fin 1) (q : Fin 128), j = ix2 u q := ⟨j 0, j 1, eq_ix2 j⟩
  rw [val_main_v24_apply]
  refine (shapeCast_apply b h (ix2 u q) (ix1 q) ?_).trans (congrArg b (funext fun a => Fin.ext (by match a with | ⟨0, _⟩ => rfl)))
  rw [Shape.rowMajor_val_one, Shape.rowMajor_val_two]
  have hu : u.val = 0 := by omega
  show q.val = u.val * 128 + q.val
  omega

theorem row20_eq (b : FVec Ideal S20 .f32) (h : S20.ShapeCasts S1x20) :
    shapeCast S1x20 b h = val_main_v66 (F := Ideal) b := by
  funext j
  obtain ⟨u, q, rfl⟩ : ∃ (u : Fin 1) (q : Fin 20), j = ix2 u q := ⟨j 0, j 1, eq_ix2 j⟩
  rw [val_main_v66_apply]
  refine (shapeCast_apply b h (ix2 u q) (ix1 q) ?_).trans (congrArg b (funext fun a => Fin.ext (by match a with | ⟨0, _⟩ => rfl)))
  rw [Shape.rowMajor_val_one, Shape.rowMajor_val_two]
  have hu : u.val = 0 := by omega
  show q.val = u.val * 20 + q.val
  omega

end Cert.Sage.Host

end
-- ==== Proof.HostK.lean ====
/-
  The idealized kernel's result array as one term of the argument arrays.

  Reading the host operations' results boundary by boundary: the first region finds the neighbour sums of the features,
  the reciprocal clamped degrees, the features, the transposed weights and the bias as a row, and leaves the first
  layer; the second region finds the neighbour sums of the first layer, the same reciprocal degrees, the first layer,
  the transposed weights and the bias rows, and leaves the second layer with the head applied.
-/
import proofs.«113258_j18124761989810_2_alg».proof.Proof.Gen.KernelIdeal.Frame
import proofs.«113258_j18124761989810_2_alg».proof.Proof.Region0
import proofs.«113258_j18124761989810_2_alg».proof.Proof.Region1
import proofs.«113258_j18124761989810_2_alg».proof.Proof.HostTerms

set_option maxRecDepth 16384

noncomputable section

namespace Cert.Sage.HostK

open Idealize.ShloMosaic Idealize.ShloMosaic.TcCoe Idealize.SL.Sem Idealize.ShloMosaic.StableHlo
open Cert.KernelIdeal Cert.KernelIdeal.Gen Cert.Sage Cert.Sage.Host
open Cert.ReferenceIdeal.Read (val_main_v1 val_main_v3 val_main_v22 val_main_v27 val_main_v24 val_main_v49 val_main_v54 val_main_v58 val_main_v64 val_main_v66)

variable (m : (ℓ : Loc nD τ sig) → Buf (Elt Ideal) ℓ) (ρ : Dev nD → PrngReg)

/-- The edges' sources, from the launch memory. -/
abbrev src (c : Dev nD) : IVec S1600000 32 := val_main_v1 (F := Ideal) (m ((c : Thread nD τ).loc main_arg1))
/-- The edges' destinations. -/
abbrev dst (c : Dev nD) : IVec S1600000 32 := val_main_v3 (F := Ideal) (m ((c : Thread nD τ).loc main_arg1))

/-! ## What the first region finds -/

theorem V1_src (c : Dev nD) : (W1 m ρ c (Proc.devRef .tc main_v1) : S1600000.Idx → BitVec 32) = src m c := by
  show StableHlo.after hostOps0 (W0 m ρ c) (Proc.devRef .tc main_v1) = _
  after_results_simp
  rfl

theorem V1_dst (c : Dev nD) : (W1 m ρ c (Proc.devRef .tc main_v3) : S1600000.Idx → BitVec 32) = dst m c := by
  show StableHlo.after hostOps0 (W0 m ρ c) (Proc.devRef .tc main_v3) = _
  after_results_simp
  rfl

theorem V1_agg (c : Dev nD) : (V1 m ρ c main_v21 : S100000x128.Idx → EReal)
    = aggGen (m ((c : Thread nD τ).loc main_arg0)) (dst m c) (src m c) := by
  show StableHlo.after hostOps0 (W0 m ρ c) (Proc.devRef .tc main_v21) = _
  after_results_simp
  rfl

theorem V1_inv (c : Dev nD) : (V1 m ρ c main_v11 : S100000x1.Idx → EReal) = invGen (dst m c) := by
  show StableHlo.after hostOps0 (W0 m ρ c) (Proc.devRef .tc main_v11) = _
  after_results_simp
  rfl

theorem V1_x (c : Dev nD) : (V1 m ρ c main_arg0 : S100000x128.Idx → EReal) = m ((c : Thread nD τ).loc main_arg0) := by
  show StableHlo.after hostOps0 (W0 m ρ c) (Proc.devRef .tc main_arg0) = _
  after_results_simp

theorem V1_wl (c : Dev nD) : (V1 m ρ c main_v22 : S128x128.Idx → EReal)
    = val_main_v22 (F := Ideal) (m ((c : Thread nD τ).loc main_arg2)) := by
  show StableHlo.after hostOps0 (W0 m ρ c) (Proc.devRef .tc main_v22) = _
  after_results_simp
  rfl

theorem V1_wr (c : Dev nD) : (V1 m ρ c main_v23 : S128x128.Idx → EReal)
    = val_main_v27 (F := Ideal) (m ((c : Thread nD τ).loc main_arg4)) := by
  show StableHlo.after hostOps0 (W0 m ρ c) (Proc.devRef .tc main_v23) = _
  after_results_simp
  rfl

theorem V1_b (c : Dev nD) : (V1 m ρ c main_v24 : S1x128.Idx → EReal)
    = val_main_v24 (F := Ideal) (m ((c : Thread nD τ).loc main_arg3)) := by
  show StableHlo.after hostOps0 (W0 m ρ c) (Proc.devRef .tc main_v24) = _
  after_results_simp
  exact row128_eq _ _

/-- The first layer, of the arguments. -/
def layer1 (c : Dev nD) : FVec Ideal S100000x128 .f32 :=
  sage (n := 100000) (d := 128) (e := 128) (aggGen (m ((c : Thread nD τ).loc main_arg0)) (dst m c) (src m c))
    (m ((c : Thread nD τ).loc main_arg0)) (invGen (dst m c))
    (val_main_v22 (F := Ideal) (m ((c : Thread nD τ).loc main_arg2))) (val_main_v27 (F := Ideal) (m ((c : Thread nD τ).loc main_arg4)))
    (val_main_v24 (F := Ideal) (m ((c : Thread nD τ).loc main_arg3)))

/-! ## What the first region leaves, and what the second finds -/

theorem W2_h1 (c : Dev nD) : (W2 m ρ c (Proc.devRef .tc main_v25) : S100000x128.Idx → EReal) = layer1 m c := by
  refine (W2_arr m ρ c 6).trans ((Region0.final (V1 m ρ) c).trans ?_)
  unfold Region0.layer layer1
  rw [V1_agg m ρ c, V1_x m ρ c, V1_inv m ρ c, V1_wl m ρ c, V1_wr m ρ c, V1_b m ρ c]

theorem W2_src (c : Dev nD) : (W2 m ρ c (Proc.devRef .tc main_v1) : S1600000.Idx → BitVec 32) = src m c :=
  (W2_of_ne m ρ c main_v1 (by decide)).trans (V1_src m ρ c)

theorem W2_dst (c : Dev nD) : (W2 m ρ c (Proc.devRef .tc main_v3) : S1600000.Idx → BitVec 32) = dst m c :=
  (W2_of_ne m ρ c main_v3 (by decide)).trans (V1_dst m ρ c)

theorem W2_inv (c : Dev nD) : (W2 m ρ c (Proc.devRef .tc main_v11) : S100000x1.Idx → EReal) = invGen (dst m c) :=
  (W2_arr m ρ c 1).trans (((dat0 (V1 m ρ) c).arrAt_in 1 rfl _).trans ((A_eq0 (V1 m ρ) c 1).trans (V1_inv m ρ c)))

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp)

theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp)

theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp)

theorem V3_agg (c : Dev nD) : (V3 m ρ c main_v35 : S100000x128.Idx → EReal)
    = aggGen (W2 m ρ c (Proc.devRef .tc main_v25)) (W2 m ρ c (Proc.devRef .tc main_v3)) (W2 m ρ c (Proc.devRef .tc main_v1)) := by
  show StableHlo.after hostOps1 (W2 m ρ c) (Proc.devRef .tc main_v35) = _
  after_results_simp
  rfl

theorem V3_h1 (c : Dev nD) : (V3 m ρ c main_v25 : S100000x128.Idx → EReal) = W2 m ρ c (Proc.devRef .tc main_v25) := by
  show StableHlo.after hostOps1 (W2 m ρ c) (Proc.devRef .tc main_v25) = _
  after_results_simp

theorem V3_inv (c : Dev nD) : (V3 m ρ c main_v11 : S100000x1.Idx → EReal) = W2 m ρ c (Proc.devRef .tc main_v11) := by
  show StableHlo.after hostOps1 (W2 m ρ c) (Proc.devRef .tc main_v11) = _
  after_results_simp

theorem V3_w2l (c : Dev nD) : (V3 m ρ c main_v36 : S128x128.Idx → EReal)
    = val_main_v49 (F := Ideal) (m ((c : Thread nD τ).loc main_arg5)) := by
  show StableHlo.after hostOps1 (W2 m ρ c) (Proc.devRef .tc main_v36) = _
  after_results_simp
  rw [W2_arg5 m ρ c]
  rfl

theorem V3_w2r (c : Dev nD) : (V3 m ρ c main_v37 : S128x128.Idx → EReal)
    = val_main_v54 (F := Ideal) (m ((c : Thread nD τ).loc main_arg7)) := by
  show StableHlo.after hostOps1 (W2 m ρ c) (Proc.devRef .tc main_v37) = _
  after_results_simp
  rw [W2_arg7 m ρ c]
  rfl

theorem V3_wm1 (c : Dev nD) : (V3 m ρ c main_v38 : S128x128.Idx → EReal)
    = val_main_v58 (F := Ideal) (m ((c : Thread nD τ).loc main_arg8)) := by
  show StableHlo.after hostOps1 (W2 m ρ c) (Proc.devRef .tc main_v38) = _
  after_results_simp
  rw [W2_arg8 m ρ c]
  rfl

theorem V3_wm2 (c : Dev nD) : (V3 m ρ c main_v39 : S128x20.Idx → EReal)
    = val_main_v64 (F := Ideal) (m ((c : Thread nD τ).loc main_arg10)) := by
  show StableHlo.after hostOps1 (W2 m ρ c) (Proc.devRef .tc main_v39) = _
  after_results_simp
  rw [W2_arg10 m ρ c]
  rfl

theorem V3_b2 (c : Dev nD) : (V3 m ρ c main_v40 : S1x128.Idx → EReal)
    = val_main_v24 (F := Ideal) (m ((c : Thread nD τ).loc main_arg6)) := by
  show StableHlo.after hostOps1 (W2 m ρ c) (Proc.devRef .tc main_v40) = _
  after_results_simp
  rw [W2_arg6 m ρ c]
  exact row128_eq _ _

theorem V3_bm1 (c : Dev nD) : (V3 m ρ c main_v41 : S1x128.Idx → EReal)
    = val_main_v24 (F := Ideal) (m ((c : Thread nD τ).loc main_arg9)) := by
  show StableHlo.after hostOps1 (W2 m ρ c) (Proc.devRef .tc main_v41) = _
  after_results_simp
  rw [W2_arg9 m ρ c]
  exact row128_eq _ _

theorem V3_bm2 (c : Dev nD) : (V3 m ρ c main_v42 : S1x20.Idx → EReal)
    = val_main_v66 (F := Ideal) (m ((c : Thread nD τ).loc main_arg11)) := by
  show StableHlo.after hostOps1 (W2 m ρ c) (Proc.devRef .tc main_v42) = _
  after_results_simp
  rw [W2_arg11 m ρ c]
  exact row20_eq _ _

/-- The kernel's result, of the arguments. -/
def result (c : Dev nD) : FVec Ideal S100000x20 .f32 :=
  headNet (n := 100000) (d := 128) (e := 128) (f := 20) (aggGen (layer1 m c) (dst m c) (src m c)) (layer1 m c) (invGen (dst m c))
    (val_main_v49 (F := Ideal) (m ((c : Thread nD τ).loc main_arg5))) (val_main_v54 (F := Ideal) (m ((c : Thread nD τ).loc main_arg7)))
    (val_main_v24 (F := Ideal) (m ((c : Thread nD τ).loc main_arg6)))
    (val_main_v58 (F := Ideal) (m ((c : Thread nD τ).loc main_arg8))) (val_main_v24 (F := Ideal) (m ((c : Thread nD τ).loc main_arg9)))
    (val_main_v64 (F := Ideal) (m ((c : Thread nD τ).loc main_arg10))) (val_main_v66 (F := Ideal) (m ((c : Thread nD τ).loc main_arg11)))

/-- THE RESULT ARRAY after the run. -/
theorem final (c : Dev nD) : (dat1 (V3 m ρ) c).arrAt 10 cfg1.N = result m c := by
  refine (Region1.final (V3 m ρ) c).trans ?_
  unfold Region1.net result
  rw [V3_agg m ρ c, V3_h1 m ρ c, V3_inv m ρ c, V3_w2l m ρ c, V3_w2r m ρ c, V3_b2 m ρ c, V3_wm1 m ρ c, V3_bm1 m ρ c,
    V3_wm2 m ρ c, V3_bm2 m ρ c, W2_h1 m ρ c, W2_dst m ρ c, W2_src m ρ c, W2_inv m ρ c]

end Cert.Sage.HostK

end
-- ==== Proof.RefLayers.lean ====
/-
  The reference program, stage by stage, computes the same two-layer graph network as the entry-by-entry formulas:
  the first layer is `sage` of the summed neighbour features, the node features and the reciprocal clamped in-degree;
  the whole program is `headNet` of the second layer's operands.

  Entry (p, q) of a reference layer is  max (((∑ k, (A[p,k] / c[p]) · WL[k,q]) + b[q]) + ∑ k, X[p,k] · WR[k,q], 0)
  with c[p] = max (cnt[p], 1).  Since 1 ≤ c[p], c[p] ≠ 0, so a / c[p] = a · c[p]⁻¹ = a · (1 / c[p]) on the extended
  reals with no finiteness assumption, and (a + b) + c = (a + c) + b.  The scatter-added operands stay opaque.
-/
import proofs.«113258_j18124761989810_2_alg».proof.Proof.Gen.ReferenceIdeal.Read
import proofs.«113258_j18124761989810_2_alg».proof.Proof.Spec

noncomputable section

namespace Cert.Sage.Ref

open Idealize.ShloMosaic Idealize.ShloMosaic.ValueIdx Cert.ReferenceIdeal Cert.ReferenceIdeal.Read

/-! ## Scalar facts on the extended reals -/

/-- The word of the float one denotes 1. -/
theorem ofBits_one : Ideal.ofBits .f32 0x3F800000#32 = 1 := by
  simp [Ideal.ofBits, Ideal.ieee, -EReal.coe_mul]; norm_num

/-- A number clamped below by 1 is not zero. -/
theorem max_one_ne_zero (t : EReal) : max t 1 ≠ 0 := by
  intro h
  have h1 : (1 : EReal) ≤ max t 1 := le_max_right t 1
  rw [h] at h1
  exact absurd h1 (not_le.mpr zero_lt_one)

/-- Off a zero divisor the quotient is the product with the reciprocal: a / c = a · (1 / c). -/
theorem div_eq_mul_one_div (a c : EReal) (hc : c ≠ 0) : Ideal.div a c = a * Ideal.div 1 c := by
  unfold Ideal.div
  rw [if_neg hc, if_neg hc, one_mul]

/-! ## A reference layer, entry by entry, is the mean-aggregating layer -/

/-- With c[p] ≠ 0 and a numerator array that is 1 at row p:
    max (((∑ k, (A[p,k] / c[p]) · WL[k,q]) + b[q]) + ∑ k, X[p,k] · WR[k,q], 0) is the layer's entry (p, q) with I = 1 / c. -/
theorem sageAt_of_ref {n d e : ℕ} (A X : FVec Ideal ⟨2, ![n, d]⟩ .f32) (One C : FVec Ideal ⟨2, ![n, 1]⟩ .f32)
    (WL WR : FVec Ideal ⟨2, ![d, e]⟩ .f32) (B : FVec Ideal ⟨2, ![1, e]⟩ .f32) (p : Fin n) (q : Fin e)
    (hOne : One (ix2 p (0 : Fin 1)) = 1) (hC : C (ix2 p (0 : Fin 1)) ≠ 0) :
    max (((∑ k : Fin d, Ideal.div (A (ix2 p k)) (C (ix2 p (0 : Fin 1))) * WL (ix2 k q)) + B (ix2 (0 : Fin 1) q))
          + ∑ k : Fin d, X (ix2 p k) * WR (ix2 k q)) zeroW
      = sageAt A X (Host.divf (F := Ideal) (φ := .f32) One C) WL WR B p q := by
  unfold sageAt
  have hI : Host.divf (F := Ideal) (φ := .f32) One C (ix2 p (0 : Fin 1)) = Ideal.div 1 (C (ix2 p (0 : Fin 1))) := by
    show Ideal.div (One (ix2 p (0 : Fin 1))) (C (ix2 p (0 : Fin 1))) = _
    rw [hOne]
  refine congrArg (fun t => max t zeroW) ((add_right_comm _ _ _).trans ?_)
  refine congrArg (fun t => t + (∑ k : Fin d, X (ix2 p k) * WR (ix2 k q)) + B (ix2 (0 : Fin 1) q)) ?_
  refine Finset.sum_congr rfl fun k _ => ?_
  rw [hI, div_eq_mul_one_div _ _ hC]

/-- The same with the layer spelt in the operations of the extended-real instance, as the stages of the reference read. -/
theorem sageAt_of_ref' {n d e : ℕ} (A X : FVec Ideal ⟨2, ![n, d]⟩ .f32) (One C : FVec Ideal ⟨2, ![n, 1]⟩ .f32)
    (WL WR : FVec Ideal ⟨2, ![d, e]⟩ .f32) (B : FVec Ideal ⟨2, ![1, e]⟩ .f32) (p : Fin n) (q : Fin e)
    (hOne : One (ix2 p (0 : Fin 1)) = 1) (hC : C (ix2 p (0 : Fin 1)) ≠ 0) :
    FloatOps.maximumf (F := Ideal) (φ := .f32)
        (FloatOps.addf (F := Ideal) (φ := .f32)
          (FloatOps.addf (F := Ideal) (φ := .f32)
            (∑ k : Fin d, FloatOps.hostDivf (F := Ideal) (φ := .f32) (A (ix2 p k)) (C (ix2 p (0 : Fin 1))) * WL (ix2 k q))
            (B (ix2 (0 : Fin 1) q)))
          (∑ k : Fin d, X (ix2 p k) * WR (ix2 k q)))
        (FloatOps.ofBits (F := Ideal) .f32 0x00000000#32)
      = sageAt A X (Host.divf (F := Ideal) (φ := .f32) One C) WL WR B p q :=
  sageAt_of_ref A X One C WL WR B p q hOne hC

/-! ## The reference's stages -/

/-- the reciprocal of the clamped in-degree, as the first layer of the reference computes it -/
def invDeg1 (x1 : (⟨S2x1600000, .i32⟩ : BufTy).Contents (Elt Ideal)) : (⟨S100000x1, .f32⟩ : BufTy).Contents (Elt Ideal) :=
  Host.divf (F := Ideal) (φ := .f32) (val_main_v18 (F := Ideal)) (val_main_v19 (F := Ideal) x1)

/-- the same, as the second layer computes it again -/
def invDeg2 (x1 : (⟨S2x1600000, .i32⟩ : BufTy).Contents (Elt Ideal)) : (⟨S100000x1, .f32⟩ : BufTy).Contents (Elt Ideal) :=
  Host.divf (F := Ideal) (φ := .f32) (val_main_v45 (F := Ideal)) (val_main_v46 (F := Ideal) x1)

/-- The array of ones of the first layer is 1 everywhere. -/
theorem v18_one (j : S100000x1.Idx) : val_main_v18 (F := Ideal) j = 1 := by
  rw [val_main_v18_apply, val_main_cst_3_apply]; exact ofBits_one

/-- The clamped in-degree of the first layer is nowhere zero. -/
theorem v19_ne_zero (x1 : (⟨S2x1600000, .i32⟩ : BufTy).Contents (Elt Ideal)) (j : S100000x1.Idx) : val_main_v19 (F := Ideal) x1 j ≠ 0 := by
  rw [val_main_v19_apply, v18_one]; exact max_one_ne_zero _

theorem lidx23 (p : Fin 100000) (q : Fin 128) (k : Fin 128) : lidx_main_v23 (ix2 p q) k = ix2 p k :=
  funext fun a => Fin.ext (by match a with | ⟨0, _⟩ => rfl | ⟨1, _⟩ => rfl)

theorem ridx23 (p : Fin 100000) (q : Fin 128) (k : Fin 128) : ridx_main_v23 (ix2 p q) k = ix2 k q :=
  funext fun a => Fin.ext (by match a with | ⟨0, _⟩ => rfl | ⟨1, _⟩ => rfl)

theorem lidx28 (p : Fin 100000) (q : Fin 128) (k : Fin 128) : lidx_main_v28 (ix2 p q) k = ix2 p k :=
  funext fun a => Fin.ext (by match a with | ⟨0, _⟩ => rfl | ⟨1, _⟩ => rfl)

theorem ridx28 (p : Fin 100000) (q : Fin 128) (k : Fin 128) : ridx_main_v28 (ix2 p q) k = ix2 k q :=
  funext fun a => Fin.ext (by match a with | ⟨0, _⟩ => rfl | ⟨1, _⟩ => rfl)

theorem idx20 (p : Fin 100000) (k : Fin 128) : idx_main_v20 (ix2 p k) = ix2 p (0 : Fin 1) :=
  funext fun a => Fin.ext (by match a with | ⟨0, _⟩ => rfl | ⟨1, _⟩ => rfl)

theorem idx25 (p : Fin 100000) (q : Fin 128) : idx_main_v25 (ix2 p q) = ix2 (0 : Fin 1) q :=
  funext fun a => Fin.ext (by match a with | ⟨0, _⟩ => rfl | ⟨1, _⟩ => rfl)

/-- The first layer of the reference is the mean-aggregating layer of the summed neighbour features. -/
theorem layer1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4
      = Cert.Sage.sage (n := 100000) (d := 128) (e := 128) (val_main_v13 (F := Ideal) x0 x1) x0 (invDeg1 x1)
          (val_main_v22 (F := Ideal) x2) (val_main_v27 (F := Ideal) x4) (val_main_v24 (F := Ideal) x3) := by
  funext i
  obtain ⟨p, q, rfl⟩ : ∃ (p : Fin 100000) (q : Fin 128), i = ix2 p q := ⟨i 0, i 1, eq_ix2 i⟩
  rw [Cert.Sage.sage_apply]
  unfold invDeg1
  refine Eq.trans ?_ (sageAt_of_ref' (n := 100000) (d := 128) (e := 128) (val_main_v13 (F := Ideal) x0 x1) x0
    (val_main_v18 (F := Ideal)) (val_main_v19 (F := Ideal) x1) (val_main_v22 (F := Ideal) x2) (val_main_v27 (F := Ideal) x4)
    (val_main_v24 (F := Ideal) x3) p q (v18_one _) (v19_ne_zero x1 _))
  have e1 : (∑ k : Fin 128, val_main_v21 (F := Ideal) x0 x1 (lidx_main_v23 (ix2 p q) k) * val_main_v22 (F := Ideal) x2 (ridx_main_v23 (ix2 p q) k))
      = ∑ k : Fin 128, FloatOps.hostDivf (F := Ideal) (φ := .f32) (val_main_v13 (F := Ideal) x0 x1 (ix2 p k))
            (val_main_v19 (F := Ideal) x1 (ix2 p (0 : Fin 1))) * val_main_v22 (F := Ideal) x2 (ix2 k q) :=
    Finset.sum_congr rfl fun k _ => by
      rw [lidx23, ridx23, val_main_v21_apply, val_main_v20_apply, idx20]
  have e2 : (∑ k : Fin 128, x0 (lidx_main_v28 (ix2 p q) k) * val_main_v27 (F := Ideal) x4 (ridx_main_v28 (ix2 p q) k))
      = ∑ k : Fin 128, x0 (ix2 p k) * val_main_v27 (F := Ideal) x4 (ix2 k q) :=
    Finset.sum_congr rfl fun k _ => by
      rw [lidx28, ridx28]
  rw [val_main_v30_apply, val_main_v29_apply, val_main_v26_apply, val_main_v23_apply, val_main_v25_apply,
    val_main_v28_apply, val_main_call0_v0_apply, val_main_call0_cst_apply, idx25, e1, e2]

/-- The array of ones of the second layer is 1 everywhere. -/
theorem v45_one (j : S100000x1.Idx) : val_main_v45 (F := Ideal) j = 1 := by
  rw [val_main_v45_apply, val_main_cst_9_apply]; exact ofBits_one

/-- The clamped in-degree of the second layer is nowhere zero. -/
theorem v46_ne_zero (x1 : (⟨S2x1600000, .i32⟩ : BufTy).Contents (Elt Ideal)) (j : S100000x1.Idx) : val_main_v46 (F := Ideal) x1 j ≠ 0 := by
  rw [val_main_v46_apply, v45_one]; exact max_one_ne_zero _

theorem lidx50 (p : Fin 100000) (q : Fin 128) (k : Fin 128) : lidx_main_v50 (ix2 p q) k = ix2 p k :=
  funext fun a => Fin.ext (by match a with | ⟨0, _⟩ => rfl | ⟨1, _⟩ => rfl)

theorem ridx50 (p : Fin 100000) (q : Fin 128) (k : Fin 128) : ridx_main_v50 (ix2 p q) k = ix2 k q :=
  funext fun a => Fin.ext (by match a with | ⟨0, _⟩ => rfl | ⟨1, _⟩ => rfl)

theorem lidx55 (p : Fin 100000) (q : Fin 128) (k : Fin 128) : lidx_main_v55 (ix2 p q) k = ix2 p k :=
  funext fun a => Fin.ext (by match a with | ⟨0, _⟩ => rfl | ⟨1, _⟩ => rfl)

theorem ridx55 (p : Fin 100000) (q : Fin 128) (k : Fin 128) : ridx_main_v55 (ix2 p q) k = ix2 k q :=
  funext fun a => Fin.ext (by match a with | ⟨0, _⟩ => rfl | ⟨1, _⟩ => rfl)

theorem idx47 (p : Fin 100000) (k : Fin 128) : idx_main_v47 (ix2 p k) = ix2 p (0 : Fin 1) :=
  funext fun a => Fin.ext (by match a with | ⟨0, _⟩ => rfl | ⟨1, _⟩ => rfl)

theorem idx52 (p : Fin 100000) (q : Fin 128) : idx_main_v52 (ix2 p q) = ix2 (0 : Fin 1) q :=
  funext fun a => Fin.ext (by match a with | ⟨0, _⟩ => rfl | ⟨1, _⟩ => rfl)

/-- The second layer of the reference is the mean-aggregating layer of the first layer's output. -/
theorem layer2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v57 (F := Ideal) x0 x1 x2 x3 x4 x5 x6 x7
      = Cert.Sage.sage (n := 100000) (d := 128) (e := 128) (val_main_v40 (F := Ideal) x0 x1 x2 x3 x4)
          (val_main_v30 (F := Ideal) x0 x1 x2 x3 x4) (invDeg2 x1)
          (val_main_v49 (F := Ideal) x5) (val_main_v54 (F := Ideal) x7) (val_main_v51 (F := Ideal) x6) := by
  funext i
  obtain ⟨p, q, rfl⟩ : ∃ (p : Fin 100000) (q : Fin 128), i = ix2 p q := ⟨i 0, i 1, eq_ix2 i⟩
  rw [Cert.Sage.sage_apply]
  unfold invDeg2
  refine Eq.trans ?_ (sageAt_of_ref' (n := 100000) (d := 128) (e := 128) (val_main_v40 (F := Ideal) x0 x1 x2 x3 x4)
    (val_main_v30 (F := Ideal) x0 x1 x2 x3 x4) (val_main_v45 (F := Ideal)) (val_main_v46 (F := Ideal) x1)
    (val_main_v49 (F := Ideal) x5) (val_main_v54 (F := Ideal) x7) (val_main_v51 (F := Ideal) x6) p q
    (v45_one _) (v46_ne_zero x1 _))
  have e1 : (∑ k : Fin 128, val_main_v48 (F := Ideal) x0 x1 x2 x3 x4 (lidx_main_v50 (ix2 p q) k) * val_main_v49 (F := Ideal) x5 (ridx_main_v50 (ix2 p q) k))
      = ∑ k : Fin 128, FloatOps.hostDivf (F := Ideal) (φ := .f32) (val_main_v40 (F := Ideal) x0 x1 x2 x3 x4 (ix2 p k))
            (val_main_v46 (F := Ideal) x1 (ix2 p (0 : Fin 1))) * val_main_v49 (F := Ideal) x5 (ix2 k q) :=
    Finset.sum_congr rfl fun k _ => by
      rw [lidx50, ridx50, val_main_v48_apply, val_main_v47_apply, idx47]
  have e2 : (∑ k : Fin 128, val_main_v30 (F := Ideal) x0 x1 x2 x3 x4 (lidx_main_v55 (ix2 p q) k) * val_main_v54 (F := Ideal) x7 (ridx_main_v55 (ix2 p q) k))
      = ∑ k : Fin 128, val_main_v30 (F := Ideal) x0 x1 x2 x3 x4 (ix2 p k) * val_main_v54 (F := Ideal) x7 (ix2 k q) :=
    Finset.sum_congr rfl fun k _ => by
      rw [lidx55, ridx55]
  rw [val_main_v57_apply, val_main_v56_apply, val_main_v53_apply, val_main_v50_apply, val_main_v52_apply,
    val_main_v55_apply, val_main_call1_v0_apply, val_main_call1_cst_apply, idx52, e1, e2]

end Cert.Sage.Ref

end
-- ==== Proof.RefHead.lean ====
/-
  The reference's head, stage by stage, is the rectified dense layer and the logistic output layer of the formulas:
  entry (p, q) of the hidden layer is max(∑ k, H[p, k] · W[k, q] + b[q], 0), and entry (p, q) of the output is
  1 / (1 + exp(−(∑ k, H[p, k] · W[k, q] + b[q]))), which is the logistic function by its definition on the extended
  reals; the numerator's word denotes one.
-/
import proofs.«113258_j18124761989810_2_alg».proof.Proof.Gen.ReferenceIdeal.Read
import proofs.«113258_j18124761989810_2_alg».proof.Proof.Spec

noncomputable section

namespace Cert.Sage.RefHead

open Idealize.ShloMosaic Idealize.ShloMosaic.ValueIdx Cert.ReferenceIdeal Cert.ReferenceIdeal.Read Cert.Sage

/-- The word of the float one denotes 1. -/
theorem one_word : Ideal.ofBits .f32 0x3F800000#32 = 1 := by
  simp [Ideal.ofBits, Ideal.ieee, -EReal.coe_mul]; norm_num

/-- The hidden layer of the head. -/
theorem hidden_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal)) :
    val_main_v63 (F := Ideal) x0 x1 x2 x3 x4 x5 x6 x7 x8 x9
      = reluDense (n := 100000) (d := 128) (e := 128) (val_main_v57 (F := Ideal) x0 x1 x2 x3 x4 x5 x6 x7)
          (val_main_v58 (F := Ideal) x8) (val_main_v60 (F := Ideal) x9) := by
  funext i
  obtain ⟨p, q, rfl⟩ : ∃ (p : Fin 100000) (q : Fin 128), i = ix2 p q := ⟨i 0, i 1, eq_ix2 i⟩
  have hl : ∀ k : Fin 128, lidx_main_v59 (ix2 p q) k = ix2 p k := fun k =>
    funext fun a => Fin.ext (by match a with | ⟨0, _⟩ => rfl | ⟨1, _⟩ => rfl)
  have hr : ∀ k : Fin 128, ridx_main_v59 (ix2 p q) k = ix2 k q := fun k =>
    funext fun a => Fin.ext (by match a with | ⟨0, _⟩ => rfl | ⟨1, _⟩ => rfl)
  have hb : idx_main_v61 (ix2 p q) = ix2 (0 : Fin 1) q :=
    funext fun a => Fin.ext (by match a with | ⟨0, _⟩ => rfl | ⟨1, _⟩ => rfl)
  rw [reluDense_apply, val_main_v63_apply, val_main_v62_apply, val_main_v59_apply, val_main_v61_apply,
    val_main_call2_v0_apply, val_main_call2_cst_apply, hb]
  unfold affAt
  simp only [Ideal.maximumf_def, Ideal.addf_def, Ideal.ofBits_def]
  refine congrArg (fun t => max (t + val_main_v60 (F := Ideal) x9 (ix2 (0 : Fin 1) q)) (Ideal.ofBits .f32 0x00000000#32)) ?_
  exact Finset.sum_congr rfl fun k _ => by rw [hl k, hr k]

/-- The output layer of the head. -/
theorem output_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 : (⟨S20x128, .f32⟩ : BufTy).Contents (Elt Ideal)) (x11 : (⟨S20, .f32⟩ : BufTy).Contents (Elt Ideal)) :
    val_main_v74 (F := Ideal) x0 x1 x2 x3 x4 x5 x6 x7 x8 x9 x10 x11
      = sigmDense (n := 100000) (d := 128) (e := 20) (val_main_v63 (F := Ideal) x0 x1 x2 x3 x4 x5 x6 x7 x8 x9)
          (val_main_v64 (F := Ideal) x10) (val_main_v66 (F := Ideal) x11) := by
  funext i
  obtain ⟨p, q, rfl⟩ : ∃ (p : Fin 100000) (q : Fin 20), i = ix2 p q := ⟨i 0, i 1, eq_ix2 i⟩
  have hl : ∀ k : Fin 128, lidx_main_v65 (ix2 p q) k = ix2 p k := fun k =>
    funext fun a => Fin.ext (by match a with | ⟨0, _⟩ => rfl | ⟨1, _⟩ => rfl)
  have hr : ∀ k : Fin 128, ridx_main_v65 (ix2 p q) k = ix2 k q := fun k =>
    funext fun a => Fin.ext (by match a with | ⟨0, _⟩ => rfl | ⟨1, _⟩ => rfl)
  have hb : idx_main_v67 (ix2 p q) = ix2 (0 : Fin 1) q :=
    funext fun a => Fin.ext (by match a with | ⟨0, _⟩ => rfl | ⟨1, _⟩ => rfl)
  rw [sigmDense_apply, val_main_v74_apply, val_main_v73_apply, val_main_cst_11_apply, val_main_v72_apply, val_main_v71_apply,
    val_main_cst_10_apply, val_main_v70_apply, val_main_v69_apply, val_main_v68_apply, val_main_v65_apply, val_main_v67_apply, hb]
  unfold affAt Ideal.logistic
  simp only [Ideal.hostDivf_def, Ideal.addf_def, Ideal.hostUnary_exp_def, Ideal.hostNegf_def, Ideal.negf_def, Ideal.ofBits_def, one_word]
  refine congrArg (fun t => Ideal.div 1 (1 + Ideal.exp (-(t + val_main_v66 (F := Ideal) x11 (ix2 (0 : Fin 1) q))))) ?_
  exact Finset.sum_congr rfl fun k _ => by rw [hl k, hr k]

end Cert.Sage.RefHead

end
-- ==== Proof.Bridge.lean ====
/-
  The reference's result is the same term of the arguments as the kernel's: the first layer of the neighbour sums of the
  features, then the second layer and the head of the neighbour sums of the first layer, both with the reciprocal
  clamped degrees — which the reference computes twice and the kernel once, the same array.
-/
import proofs.«113258_j18124761989810_2_alg».proof.Proof.RefLayers
import proofs.«113258_j18124761989810_2_alg».proof.Proof.RefHead
import proofs.«113258_j18124761989810_2_alg».proof.Proof.HostTerms

noncomputable section

namespace Cert.Sage.Bridge

open Idealize.ShloMosaic Cert.ReferenceIdeal Cert.ReferenceIdeal.Read Cert.Sage Cert.Sage.Host Cert.Sage.Ref Cert.Sage.RefHead

/-- The first layer, of the arguments. -/
def layer1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : FVec Ideal S100000x128 .f32 :=
  sage (n := 100000) (d := 128) (e := 128) (aggGen x0 (val_main_v3 (F := Ideal) x1) (val_main_v1 (F := Ideal) x1)) x0
    (invGen (val_main_v3 (F := Ideal) x1)) (val_main_v22 (F := Ideal) x2) (val_main_v27 (F := Ideal) x4) (val_main_v24 (F := Ideal) x3)

/-- The whole network, of the arguments. -/
def network (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 : (⟨S20x128, .f32⟩ : BufTy).Contents (Elt Ideal)) (x11 : (⟨S20, .f32⟩ : BufTy).Contents (Elt Ideal)) : FVec Ideal S100000x20 .f32 :=
  headNet (n := 100000) (d := 128) (e := 128) (f := 20)
    (aggGen (layer1 x0 x1 x2 x3 x4) (val_main_v3 (F := Ideal) x1) (val_main_v1 (F := Ideal) x1)) (layer1 x0 x1 x2 x3 x4)
    (invGen (val_main_v3 (F := Ideal) x1)) (val_main_v49 (F := Ideal) x5) (val_main_v54 (F := Ideal) x7) (val_main_v24 (F := Ideal) x6)
    (val_main_v58 (F := Ideal) x8) (val_main_v24 (F := Ideal) x9) (val_main_v64 (F := Ideal) x10) (val_main_v66 (F := Ideal) x11)

/-- The three bias rows are one construction. -/
theorem row51 (b : (⟨S128, .f32⟩ : BufTy).Contents (Elt Ideal)) : val_main_v51 (F := Ideal) b = val_main_v24 (F := Ideal) b := rfl
theorem row60 (b : (⟨S128, .f32⟩ : BufTy).Contents (Elt Ideal)) : val_main_v60 (F := Ideal) b = val_main_v24 (F := Ideal) b := rfl

theorem layer1_ref (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4 = layer1 x0 x1 x2 x3 x4 := by
  rw [layer1_eq, agg1_eq]
  unfold invDeg1 layer1
  rw [inv1_eq]

/-- The reference's result is the network of its arguments. -/
theorem reference_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 : (⟨S20x128, .f32⟩ : BufTy).Contents (Elt Ideal)) (x11 : (⟨S20, .f32⟩ : BufTy).Contents (Elt Ideal)) :
    val_main_v74 (F := Ideal) x0 x1 x2 x3 x4 x5 x6 x7 x8 x9 x10 x11 = network x0 x1 x2 x3 x4 x5 x6 x7 x8 x9 x10 x11 := by
  rw [output_eq, hidden_eq, layer2_eq, agg2_eq, layer1_ref, row51, row60]
  unfold invDeg2 network headNet
  rw [inv2_eq]

end Cert.Sage.Bridge

end
-- ==== Proof.lean ====
/-
  A two-layer graph network with mean aggregation, a two-layer head and a logistic output, computed by two blocked
  kernels around host gathers and scatter-adds, against the same network written with plain array operations.

  On the extended reals both programs compute one term of the argument arrays.  Each graph layer is
  max((∑ k, (A[p, k] · I[p]) · WL[k, q] + ∑ k, X[p, k] · WR[k, q]) + b[q], 0) with A the neighbour sums and I[p] the
  reciprocal of max(in-degree of p, 1).  The kernel multiplies by I[p] where the reference divides by the clamped degree:
  the divisor is at least one, so it is not zero and the quotient is the product with the inverse, whatever the
  numerator.  The kernel adds the bias last where the reference adds it between the two products: addition on the
  extended reals is commutative and associative.  The kernel works block of 5000 rows by block; a row of every layer
  depends on that row of its row-indexed operands only, so the blocks are the rows of the whole-array formulas.  The
  gathers and scatter-adds are the same operations applied to equal operands in both programs and are never opened.
  The reference computes the degrees twice and the kernel once: the same array.  No finiteness of the inputs is used.
-/
import proofs.«113258_j18124761989810_2_alg».proof.Defs
import proofs.«113258_j18124761989810_2_alg».proof.Proof.Gen.Kernel
import proofs.«113258_j18124761989810_2_alg».proof.Proof.Gen.Kernel.Frame
import proofs.«113258_j18124761989810_2_alg».proof.Proof.Gen.KernelIdeal
import proofs.«113258_j18124761989810_2_alg».proof.Proof.Gen.ReferenceIdeal
import proofs.«113258_j18124761989810_2_alg».proof.Proof.Gen.Pre_finite_inputs
import proofs.«113258_j18124761989810_2_alg».proof.Proof.Gen.ReferenceIdeal.Run
import proofs.«113258_j18124761989810_2_alg».proof.Proof.Gen.ReferenceIdeal.Read
import proofs.«113258_j18124761989810_2_alg».proof.Proof.KRun
import proofs.«113258_j18124761989810_2_alg».proof.Proof.HostK
import proofs.«113258_j18124761989810_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array, of the kernel's arguments, is the network of those arguments. -/
theorem result_eq (m : (ℓ : Loc Cert.KernelIdeal.nD Cert.KernelIdeal.τ Cert.KernelIdeal.sig) → Buf (Elt Ideal) ℓ) (c : Dev Cert.KernelIdeal.nD) :
    Cert.Sage.HostK.result m c
      = Cert.Sage.Bridge.network (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)) := by
  unfold Cert.Sage.HostK.result Cert.Sage.HostK.layer1 Cert.Sage.Bridge.network Cert.Sage.Bridge.layer1
  rfl

/-- From memories agreeing on the arguments both idealized programs end with the network of the arguments in their
    result arrays. -/
theorem algebraic : Cert.algebraic_KernelIdeal_ReferenceIdeal := by
  intro m ρ m' ρ' _ hagree
  refine ⟨fun c => Cert.Sage.HostK.result m c, ?_, ?_⟩
  · exact (θ_run Cert.KernelIdeal.defs _ _).mono
      (fun r h c => ⟨(h c).1.trans (Cert.Sage.HostK.final m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v74_eq, a0, a1, a2, a3, a4, a5, a6, a7, a8, a9, a10, a11,
      Cert.Sage.Bridge.reference_eq]
    exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
